-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel

variable [Facts]

def fn {F : FTy → Type} [FloatOps F] (main_arg0 : FVec F S8x2048x512 .f32) (main_arg1 : FVec F S8x2048x512 .f32) (main_arg2 : FVec F S8x2048x512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2048x512 .f32 := Host.absf main_arg1
  let main_cst_0 : FVec F S_ .f32 := constant S_ .f32 0x7F800000#32
  let main_v5 : FVec F S8x2048x512 .f32 := broadcastInDim S8x2048x512 ![] bcast_S_S8x2048x512 main_cst_0
  let main_v6 : IVec S8x2048x512 1 := cmpf .olt main_v4 main_v5
  let main_c_1 : IVec S_ 1 := constantI S_ 1 1#1
  let main_v7 : IVec S_ 1 := (fun x v => Host.reduce IntOp.andi x v reducesTo_S8x2048x512_S_d0_1_2 h_S_) main_v6 main_c_1
  let main_v8 : IVec S_ 1 := andi main_v3 main_v7
  let main_v9 : FVec F S8x2048x512 .f32 := Host.absf main_arg2
  let main_cst_2 : FVec F S_ .f32 := constant S_ .f32 0x7F800000#32
  let main_v10 : FVec F S8x2048x512 .f32 := broadcastInDim S8x2048x512 ![] bcast_S_S8x2048x512 main_cst_2
  let main_v11 : IVec S8x2048x512 1 := cmpf .olt main_v9 main_v10
  let main_c_3 : IVec S_ 1 := constantI S_ 1 1#1
  let main_v12 : IVec S_ 1 := (fun x v => Host.reduce IntOp.andi x v reducesTo_S8x2048x512_S_d0_1_2 h_S_) main_v11 main_c_3
  let main_v13 : IVec S_ 1 := andi main_v8 main_v12
  main_v13
-- ==== Kernel.lean ====
abbrev S8x2048x512 : Shape := ⟨3, ![8, 2048, 512]⟩
abbrev S1x512x512 : Shape := ⟨3, ![1, 512, 512]⟩
abbrev S1x2048x512 : Shape := ⟨3, ![1, 2048, 512]⟩
abbrev S1x512x2048 : Shape := ⟨3, ![1, 512, 2048]⟩
abbrev S1x512 : Shape := ⟨2, ![1, 512]⟩
abbrev S1x512x1 : Shape := ⟨3, ![1, 512, 1]⟩

abbrev nBuf : Space → Nat
  | .hbm => 4
  | .vmem => 10
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .hbm, ⟨3, _⟩ => ⟨S8x2048x512, .f32⟩
  | .local _ .vmem, ⟨0, _⟩ => ⟨S1x512x512, .f32⟩
  | .local _ .vmem, ⟨1, _⟩ => ⟨S1x512x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x512, .f32⟩
  | .local _ .vmem, ⟨7, _⟩ => ⟨S1x512x512, .f32⟩
  | .local _ .vmem, ⟨8, _⟩ => ⟨S1x2048x512, .bf16⟩
  | .local _ .vmem, ⟨9, _⟩ => ⟨S1x2048x512, .bf16⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x2048x512_S1x2048x512_0_0_0 : ∀ a, (![0, 0, 0] : Fin 3 → Nat) a + S1x2048x512.size a ≤ S1x2048x512.size a
  h_S1x2048x512 : 0 < S1x2048x512.numel
  bitsLt_bf16_f32 : FTy.bits .bf16 < FTy.bits .f32
  shapeCasts_S1x2048x512_S1x2048x512 : S1x2048x512.ShapeCasts S1x2048x512
  packedbf16_S1x2048x512_S1x2048x512_0_0_0 : (Rect.unit (s := S1x2048x512) ![0, 0, 0] S1x2048x512.size inb_S1x2048x512_S1x2048x512_0_0_0).PackedRows (EltTy.packing .bf16)
  inb_S1x512x512_S1x512x512_0_0_0 : ∀ a, (![0, 0, 0] : Fin 3 → Nat) a + S1x512x512.size a ≤ S1x512x512.size a
  h_S1x512x512 : 0 < S1x512x512.numel
  reduces_S1x512x2048_S1x512 : S1x512x2048.Reduces [2] S1x512
  shapeCasts_S1x512_S1x512x1 : S1x512.ShapeCasts S1x512x1
  broadcasts_S1x512x1_S1x512x2048 : S1x512x1.Broadcasts S1x512x2048
  broadcasts_S1x512x1_S1x512x512 : S1x512x1.Broadcasts S1x512x512
  dot_S1x512x512_S1x2048x512_S1x512x2048_2_2_1_1_0_0_wf : DotDims.WF S1x512x512 S1x2048x512 S1x512x2048 [2] [2] [1] [1] [0] [0]
  dot_S1x512x2048_S1x2048x512_S1x512x512_2_1_1_2_0_0_wf : DotDims.WF S1x512x2048 S1x2048x512 S1x512x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S8x2048x512.size a
  hwx0_0 : ∀ i : grid0.Coords, EltTy.bits .f32 = 32 ∨ (Rect.block (s := S8x2048x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x512.size a
  hwx0_1 : ∀ i : grid0.Coords, EltTy.bits .f32 = 32 ∨ (Rect.block (s := S8x2048x512) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S8x2048x512.size a
  hwx0_2 : ∀ i : grid0.Coords, EltTy.bits .f32 = 32 ∨ (Rect.block (s := S8x2048x512) S1x2048x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S8x2048x512.size a
  hwx0_3 : ∀ i : grid0.Coords, EltTy.bits .f32 = 32 ∨ (Rect.block (s := S8x2048x512) S1x512x512.size (cc0_transform_3 i) (hinb0_3 i)).WholeWords (EltTy.packing .f32)

variable [Facts₀]

def dot_S1x512x512_S1x2048x512_S1x512x2048_2_2_1_1_0_0 : DotDims S1x512x512 S1x2048x512 S1x512x2048 where
  lhsContracting := [2]
  rhsContracting := [2]
  lhsNonContracting := [1]
  rhsNonContracting := [1]
  lhsBatch := [0]
  rhsBatch := [0]
  wf := dot_S1x512x512_S1x2048x512_S1x512x2048_2_2_1_1_0_0_wf
def dot_S1x512x2048_S1x2048x512_S1x512x512_2_1_1_2_0_0 : DotDims S1x512x2048 S1x2048x512 S1x512x512 where
  lhsContracting := [2]
  rhsContracting := [1]
  lhsNonContracting := [1]
  rhsNonContracting := [2]
  lhsBatch := [0]
  rhsBatch := [0]
  wf := dot_S1x512x2048_S1x2048x512_S1x512x512_2_1_1_2_0_0_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .hbm, ⟨3, _⟩ => ⟨S8x2048x2048, .f32⟩
  | .hbm, ⟨4, _⟩ => ⟨S_, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S8x2048x1, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S8x2048x2048, .f32⟩
  | .hbm, ⟨17, _⟩ => ⟨S8x2048x2048, .f32⟩
  | .hbm, ⟨18, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_2_1_1_2_0_0_wf : DotDims.WF S8x2048x2048 S8x2048x512 S8x2048x512 [2] [1] [1] [2] [0] [0]

variable [Facts₀]

def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf

class Facts : Prop extends Facts₀ where

variable [Facts]
-- ==== Proof.Pieces.lean ====
/-
  What each case of the body leaves behind, as values.

  At the first query tile of a batch the body copies the key and value slabs it was handed (changing only their float
  format) into its two carried buffers, reads them back, and stores the output block computed from the query block and
  those copies. At the other query tiles it stores nothing into the carried buffers and computes the output block from
  the query block and what the carried buffers already hold.
-/
import proofs.«105089_j48790828482913_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0, 0] : Fin 3 → Nat) = fun _ => 0 := funext fun a => by fin_cases a <;> rfl

/-- A later query tile: the output block is computed from the query block and the carried copies. -/
theorem out_B (c : Dev nD) (i : grid0.Coords) (a2 : Memref sig .tc .vmem S1x512x512 .f32) (h2 : a2.IsWhole) (a3 : Memref sig .tc .vmem S1x2048x512 .f32) (h3 : a3.IsWhole) (a4 : Memref sig .tc .vmem S1x2048x512 .f32) (h4 : a4.IsWhole) (a5 : Memref sig .tc .vmem S1x512x512 .f32) (h5 : a5.IsWhole) (a6 : Memref sig .tc .vmem S1x2048x512 .bf16) (h6 : a6.IsWhole) (a7 : Memref sig .tc .vmem S1x2048x512 .bf16) (h7 : a7.IsWhole) (hc : ¬cond0_0 i)
    (x0 : Vec F S1x512x512 .f32) (x1 x2 : Vec F S1x2048x512 .f32) (xs0 xs1 : Vec F S1x2048x512 .bf16) :
    out0_B_3 c i a2 h2 a3 h3 a4 h4 a5 h5 a6 h6 a7 h7 hc x0 x1 x2 xs0 xs1 = k0_pay3 x0 xs0 xs1 := by
  unfold out0_B_3
  rw [View.read_writes_eq_canon _ _ _ (cover0_B_3 c i a2 h2 a3 h3 a4 h4 a5 h5 a6 h6 a7 h7 hc x0 x1 x2 xs0 xs1)]
  unfold kernelRun0_B
  dsimp only
  rw [View.canon_unit_zero hz]
  simp only [View.readAt_eq_ld, h2.read_unread, h6.read_unread, h7.read_unread, View.ld_unit_zero (S := S1x512x512) hz,
    View.ld_unit_zero (S := S1x2048x512) hz]

/-- The first query tile leaves the keys' copy in the first carried buffer. -/
theorem sout_A_0 (c : Dev nD) (i : grid0.Coords) (a2 : Memref sig .tc .vmem S1x512x512 .f32) (h2 : a2.IsWhole) (a3 : Memref sig .tc .vmem S1x2048x512 .f32) (h3 : a3.IsWhole) (a4 : Memref sig .tc .vmem S1x2048x512 .f32) (h4 : a4.IsWhole) (a5 : Memref sig .tc .vmem S1x512x512 .f32) (h5 : a5.IsWhole) (a6 : Memref sig .tc .vmem S1x2048x512 .bf16) (h6 : a6.IsWhole) (a7 : Memref sig .tc .vmem S1x2048x512 .bf16) (h7 : a7.IsWhole) (hc : cond0_0 i)
    (x0 : Vec F S1x512x512 .f32) (x1 x2 : Vec F S1x2048x512 .f32) :
    sout0_A_0 c i a2 h2 a3 h3 a4 h4 a5 h5 a6 h6 a7 h7 hc x0 x1 x2 = k0_pay1 x1 := by
  unfold sout0_A_0
  rw [View.read_writes_eq_canon _ _ _ (scover0_A_0 c i a2 h2 a3 h3 a4 h4 a5 h5 a6 h6 a7 h7 hc x0 x1 x2)]
  unfold kernelRun0_A
  dsimp only
  sl_unfold_words
  rw [View.canon_unit_zero hz]
  simp only [View.readAt_eq_ld, h3.read_unread, View.ld_unit_zero (S := S1x2048x512) hz]

/-- The first query tile leaves the values' copy in the second carried buffer. -/
theorem sout_A_1 (c : Dev nD) (i : grid0.Coords) (a2 : Memref sig .tc .vmem S1x512x512 .f32) (h2 : a2.IsWhole) (a3 : Memref sig .tc .vmem S1x2048x512 .f32) (h3 : a3.IsWhole) (a4 : Memref sig .tc .vmem S1x2048x512 .f32) (h4 : a4.IsWhole) (a5 : Memref sig .tc .vmem S1x512x512 .f32) (h5 : a5.IsWhole) (a6 : Memref sig .tc .vmem S1x2048x512 .bf16) (h6 : a6.IsWhole) (a7 : Memref sig .tc .vmem S1x2048x512 .bf16) (h7 : a7.IsWhole) (hc : cond0_0 i)
    (x0 : Vec F S1x512x512 .f32) (x1 x2 : Vec F S1x2048x512 .f32) :
    sout0_A_1 c i a2 h2 a3 h3 a4 h4 a5 h5 a6 h6 a7 h7 hc x0 x1 x2 = k0_pay2 x2 := by
  unfold sout0_A_1
  rw [View.read_writes_eq_canon _ _ _ (scover0_A_1 c i a2 h2 a3 h3 a4 h4 a5 h5 a6 h6 a7 h7 hc x0 x1 x2)]
  unfold kernelRun0_A
  dsimp only
  sl_unfold_words
  rw [View.canon_unit_zero hz]
  simp only [View.readAt_eq_ld, h4.read_unread, View.ld_unit_zero (S := S1x2048x512) hz]

/-- The first query tile: the output block is computed from the query block and the copies just made. -/
theorem out_A (c : Dev nD) (i : grid0.Coords) (a2 : Memref sig .tc .vmem S1x512x512 .f32) (h2 : a2.IsWhole) (a3 : Memref sig .tc .vmem S1x2048x512 .f32) (h3 : a3.IsWhole) (a4 : Memref sig .tc .vmem S1x2048x512 .f32) (h4 : a4.IsWhole) (a5 : Memref sig .tc .vmem S1x512x512 .f32) (h5 : a5.IsWhole) (a6 : Memref sig .tc .vmem S1x2048x512 .bf16) (h6 : a6.IsWhole) (a7 : Memref sig .tc .vmem S1x2048x512 .bf16) (h7 : a7.IsWhole) (hc : cond0_0 i)
    (x0 : Vec F S1x512x512 .f32) (x1 x2 : Vec F S1x2048x512 .f32) :
    out0_A_3 c i a2 h2 a3 h3 a4 h4 a5 h5 a6 h6 a7 h7 hc x0 x1 x2 = k0_pay3 x0 (k0_pay1 x1) (k0_pay2 x2) := by
  unfold out0_A_3
  rw [View.read_writes_eq_canon _ _ _ (cover0_A_3 c i a2 h2 a3 h3 a4 h4 a5 h5 a6 h6 a7 h7 hc x0 x1 x2)]
  unfold kernelRun0_A
  dsimp only
  sl_unfold_words
  rw [View.canon_unit_zero hz, View.readCov_unit_zero (S := S1x2048x512) _ hz, View.readCov_unit_zero (S := S1x2048x512) _ hz]
  simp only [View.readAt_eq_ld, h2.read_unread, h3.read_unread, h4.read_unread, View.ld_unit_zero (S := S1x512x512) hz,
    View.ld_unit_zero (S := S1x2048x512) hz]

end Cert.KernelIdeal.Pieces

end
-- ==== Proof.BlockReads.lean ====
/-
  Where each window's block sits in its array.

  The grid has 8 · 4 points; point `t` works on batch `t / 4` and query tile `t % 4`. The query window and the output
  window hold rows `512 · (t % 4) … 512 · (t % 4) + 511` of batch `t / 4`; the key and value windows hold the whole
  slab of batch `t / 4`, the same at the four points of a batch.
-/
import proofs.«105089_j48790828482913_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.BlockReads

open Cert.KernelIdeal Cert.KernelIdeal.Gen

variable {F : FTy → Type} [FloatOps F]
variable (m : (ℓ : Loc nD τ sig) → Buf (Elt F) ℓ)

/-- The printed index maps, decided over the 32 grid points. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = t.val % 4 ∧ win0_3.index t (2 : Fin 3) = 0 :=
  (by decide +kernel : ∀ t : Fin grid0.N, _)

/-- The batch a grid point works on. -/
def batchOf (t : Fin cfg0.N) : Fin 8 :=
  ⟨t.val / 4, by have h := t.isLt; have hN : cfg0.N = 32 := N_0; omega⟩

/-- The row of the whole array that row `p` of the point's query tile is. -/
def rowOf (t : Fin cfg0.N) (p : Fin 512) : Fin 2048 :=
  ⟨t.val % 4 * 512 + p.val, by have h := p.isLt; omega⟩

/-- The query block at point `t`: rows `512 · (t % 4) + p` of batch `t / 4`. -/
theorem iblk0_apply (c : Dev nD) (t : Fin cfg0.N) (p e : Fin 512) :
    (iblk m c 0 t : Vec F S1x512x512 .f32) (ix3 (0 : Fin 1) p e)
      = m ((c : Thread nD τ).loc main_arg0) (ix3 (batchOf t) (rowOf t p) e) := by
  obtain ⟨e0, e1, e2, -⟩ := idx_facts t
  unfold iblk
  rw [View.read_apply]
  show V m c main_arg0 _ = m ((c : Thread nD τ).loc main_arg0) _
  unfold V
  congr 1
  funext a
  apply Fin.ext
  match a with
  | ⟨0, _⟩ => show win0_0.index t (0 : Fin 3) * 1 + 1 * 0 = t.val / 4; rw [e0]; omega
  | ⟨1, _⟩ => show win0_0.index t (1 : Fin 3) * 512 + 1 * p.val = t.val % 4 * 512 + p.val; rw [e1]; omega
  | ⟨2, _⟩ => show win0_0.index t (2 : Fin 3) * 512 + 1 * e.val = e.val; rw [e2]; omega

/-- The key block at point `t`: the whole slab of batch `t / 4`. -/
theorem iblk1_apply (c : Dev nD) (t : Fin cfg0.N) (k : Fin 2048) (e : Fin 512) :
    (iblk m c 1 t : Vec F S1x2048x512 .f32) (ix3 (0 : Fin 1) k e)
      = m ((c : Thread nD τ).loc main_arg1) (ix3 (batchOf t) k e) := by
  obtain ⟨-, -, -, e0, e1, e2, -⟩ := idx_facts t
  unfold iblk
  rw [View.read_apply]
  show V m c main_arg1 _ = m ((c : Thread nD τ).loc main_arg1) _
  unfold V
  congr 1
  funext a
  apply Fin.ext
  match a with
  | ⟨0, _⟩ => show win0_1.index t (0 : Fin 3) * 1 + 1 * 0 = t.val / 4; rw [e0]; omega
  | ⟨1, _⟩ => show win0_1.index t (1 : Fin 3) * 2048 + 1 * k.val = k.val; rw [e1]; omega
  | ⟨2, _⟩ => show win0_1.index t (2 : Fin 3) * 512 + 1 * e.val = e.val; rw [e2]; omega

/-- The value block at point `t`: the whole slab of batch `t / 4`. -/
theorem iblk2_apply (c : Dev nD) (t : Fin cfg0.N) (k : Fin 2048) (e : Fin 512) :
    (iblk m c 2 t : Vec F S1x2048x512 .f32) (ix3 (0 : Fin 1) k e)
      = m ((c : Thread nD τ).loc main_arg2) (ix3 (batchOf t) k e) := by
  obtain ⟨-, -, -, -, -, -, e0, e1, e2, -⟩ := idx_facts t
  unfold iblk
  rw [View.read_apply]
  show V m c main_arg2 _ = m ((c : Thread nD τ).loc main_arg2) _
  unfold V
  congr 1
  funext a
  apply Fin.ext
  match a with
  | ⟨0, _⟩ => show win0_2.index t (0 : Fin 3) * 1 + 1 * 0 = t.val / 4; rw [e0]; omega
  | ⟨1, _⟩ => show win0_2.index t (1 : Fin 3) * 2048 + 1 * k.val = k.val; rw [e1]; omega
  | ⟨2, _⟩ => show win0_2.index t (2 : Fin 3) * 512 + 1 * e.val = e.val; rw [e2]; omega

/-- Entry `(0, p, d)` of the output block at point `t` is entry `(t / 4, 512 · (t % 4) + p, d)` of the output array. -/
theorem emb3 (t : Fin cfg0.N) (p d : Fin 512) :
    ((cfg0.win 3).blk t).view.emb (ix3 (0 : Fin 1) p d) = ix3 (batchOf t) (rowOf t p) d := by
  obtain ⟨-, -, -, -, -, -, -, -, -, e0, e1, e2⟩ := idx_facts t
  funext a
  apply Fin.ext
  match a with
  | ⟨0, _⟩ => show win0_3.index t (0 : Fin 3) * 1 + 1 * 0 = t.val / 4; rw [e0]; omega
  | ⟨1, _⟩ => show win0_3.index t (1 : Fin 3) * 512 + 1 * p.val = t.val % 4 * 512 + p.val; rw [e1]; omega
  | ⟨2, _⟩ => show win0_3.index t (2 : Fin 3) * 512 + 1 * d.val = d.val; rw [e2]; omega

/-- Within a batch the key block does not change from one point to the next. -/
theorem iblk1_pred (c : Dev nD) (n : ℕ) (h : n + 1 < cfg0.N) (h0 : ¬(n + 1) % 4 = 0) :
    (iblk m c 1 ⟨n + 1, h⟩ : Vec F S1x2048x512 .f32) = iblk m c 1 ⟨n, Nat.lt_of_succ_lt h⟩ := by
  funext y
  obtain ⟨y0, k, e, rfl⟩ : ∃ (y0 : Fin 1) (k : Fin 2048) (e : Fin 512), y = ix3 y0 k e := ⟨y 0, y 1, y 2, eq_ix3 y⟩
  obtain rfl : y0 = 0 := Subsingleton.elim _ _
  rw [iblk1_apply, iblk1_apply]
  have hb : batchOf ⟨n + 1, h⟩ = batchOf ⟨n, Nat.lt_of_succ_lt h⟩ := Fin.ext (by show (n + 1) / 4 = n / 4; omega)
  rw [hb]

/-- Within a batch the value block does not change from one point to the next. -/
theorem iblk2_pred (c : Dev nD) (n : ℕ) (h : n + 1 < cfg0.N) (h0 : ¬(n + 1) % 4 = 0) :
    (iblk m c 2 ⟨n + 1, h⟩ : Vec F S1x2048x512 .f32) = iblk m c 2 ⟨n, Nat.lt_of_succ_lt h⟩ := by
  funext y
  obtain ⟨y0, k, e, rfl⟩ : ∃ (y0 : Fin 1) (k : Fin 2048) (e : Fin 512), y = ix3 y0 k e := ⟨y 0, y 1, y 2, eq_ix3 y⟩
  obtain rfl : y0 = 0 := Subsingleton.elim _ _
  rw [iblk2_apply, iblk2_apply]
  have hb : batchOf ⟨n + 1, h⟩ = batchOf ⟨n, Nat.lt_of_succ_lt h⟩ := Fin.ext (by show (n + 1) / 4 = n / 4; omega)
  rw [hb]

end Cert.KernelIdeal.BlockReads

end
-- ==== Proof.Carried.lean ====
/-
  What the carried buffers and the output's staging buffer hold after every grid point.

  By induction on the point: after point `t` the two carried buffers hold the (format-changed) copies of the key and value
  blocks of `t`, and the output's buffer holds the body's result on the query block of `t` and those copies. A point that
  opens a batch writes the copies itself. Any other point keeps what the point before left, and the point before belongs
  to the same batch, so its key and value blocks are the same.
-/
import proofs.«105089_j48790828482913_2_alg».proof.Proof.Pieces
import proofs.«105089_j48790828482913_2_alg».proof.Proof.BlockReads

noncomputable section

open Idealize.ShloMosaic Idealize.ShloMosaic.TcCoe Idealize.SL.Sem

namespace Cert.KernelIdeal.Carried

open Cert.KernelIdeal Cert.KernelIdeal.Gen Cert.KernelIdeal.Pieces Cert.KernelIdeal.BlockReads

variable {F : FTy → Type} [FloatOps F]
variable (m : (ℓ : Loc nD τ sig) → Buf (Elt F) ℓ)

/-- The output's buffer and the two carried buffers after point `n`. -/
theorem outs_eq (c : Dev nD) : ∀ (n : ℕ) (h : n < cfg0.N),
    outsAt0 m c n h
      = (k0_pay3 (iblk m c 0 ⟨n, h⟩) (k0_pay1 (iblk m c 1 ⟨n, h⟩)) (k0_pay2 (iblk m c 2 ⟨n, h⟩)),
          k0_pay1 (iblk m c 1 ⟨n, h⟩), k0_pay2 (iblk m c 2 ⟨n, h⟩))
  | 0, h => by
    have h0 : (⟨0, h⟩ : Fin cfg0.N).val % 4 = 0 := rfl
    rw [outsAt0_A m c ⟨0, h⟩ h0,
      out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) ((hcond0_0 ⟨0, h⟩).mpr h0) (iblk m c 0 ⟨0, h⟩) (iblk m c 1 ⟨0, h⟩) (iblk m c 2 ⟨0, h⟩),
      sout_A_0 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) ((hcond0_0 ⟨0, h⟩).mpr h0) (iblk m c 0 ⟨0, h⟩) (iblk m c 1 ⟨0, h⟩) (iblk m c 2 ⟨0, h⟩),
      sout_A_1 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) ((hcond0_0 ⟨0, h⟩).mpr h0) (iblk m c 0 ⟨0, h⟩) (iblk m c 1 ⟨0, h⟩) (iblk m c 2 ⟨0, h⟩)]
  | n + 1, h => by
    by_cases h0 : (n + 1) % 4 = 0
    · have h0' : (⟨n + 1, h⟩ : Fin cfg0.N).val % 4 = 0 := h0
      rw [outsAt0_A m c ⟨n + 1, h⟩ h0',
        out_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) ((hcond0_0 ⟨n + 1, h⟩).mpr h0') (iblk m c 0 ⟨n + 1, h⟩) (iblk m c 1 ⟨n + 1, h⟩) (iblk m c 2 ⟨n + 1, h⟩),
        sout_A_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) ((hcond0_0 ⟨n + 1, h⟩).mpr h0') (iblk m c 0 ⟨n + 1, h⟩) (iblk m c 1 ⟨n + 1, h⟩) (iblk m c 2 ⟨n + 1, h⟩),
        sout_A_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) ((hcond0_0 ⟨n + 1, h⟩).mpr h0') (iblk m c 0 ⟨n + 1, h⟩) (iblk m c 1 ⟨n + 1, h⟩) (iblk m c 2 ⟨n + 1, h⟩)]
    · have h0' : ¬(⟨n + 1, h⟩ : Fin cfg0.N).val % 4 = 0 := h0
      have ih := outs_eq c n (Nat.lt_of_succ_lt h)
      rw [outsAt0_B m c ⟨n + 1, h⟩ h0']
      unfold sout0_B_0 sout0_B_1
      rw [out_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0' ((hcond0_0 ⟨n + 1, h⟩).mp hh)) (iblk m c 0 ⟨n + 1, h⟩) (iblk m c 1 ⟨n + 1, h⟩) (iblk m c 2 ⟨n + 1, h⟩) _ _]
      show (k0_pay3 (iblk m c 0 ⟨n + 1, h⟩) (outsAt0 m c n (Nat.lt_of_succ_lt h)).2.1 (outsAt0 m c n (Nat.lt_of_succ_lt h)).2.2,
          (outsAt0 m c n (Nat.lt_of_succ_lt h)).2.1, (outsAt0 m c n (Nat.lt_of_succ_lt h)).2.2) = _
      rw [ih, iblk1_pred m c n h h0, iblk2_pred m c n h h0]

/-- What the output's staging buffer holds after point `t`. -/
theorem out_at (c : Dev nD) (t : Fin cfg0.N) :
    (outsAt0 m c t.val t.isLt).1
      = k0_pay3 (iblk m c 0 t) (k0_pay1 (iblk m c 1 t)) (k0_pay2 (iblk m c 2 t)) := by
  rw [outs_eq m c t.val t.isLt]

end Cert.KernelIdeal.Carried

end
-- ==== Proof.LibRealSum.lean ====
/-
  Sums of real numbers inside the extended reals.

  The coercion of a finite sum of reals is the sum of the coercions. Consequently, when every factor is a real
  number, a weighted double sum may be taken in either order:
      Σ_e (Σ_k x e k · W k) · r e  =  Σ_k (Σ_e x e k · r e) · W k .
  (Over the extended reals in general this fails: multiplication does not distribute over a sum that mixes +∞ and −∞.)
-/
import Mathlib

noncomputable section

open scoped BigOperators

namespace Cert.LibRealSum

/-- An extended real that is (the coercion of) a real number. -/
def IsReal (x : EReal) : Prop := ∃ a : ℝ, x = (a : EReal)

theorem isReal_coe (a : ℝ) : IsReal (a : EReal) := ⟨a, rfl⟩
theorem isReal_zero : IsReal 0 := ⟨0, rfl⟩
theorem isReal_one : IsReal 1 := ⟨1, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert j s hj ih => rw [Finset.sum_insert hj, Finset.sum_insert hj, EReal.coe_add, ih]

theorem isReal_sum {ι : Type*} (s : Finset ι) (f : ι → EReal) (h : ∀ i ∈ s, IsReal (f i)) : IsReal (∑ i ∈ s, f i) := by
  classical
  induction s using Finset.induction_on with
  | empty => simpa using isReal_zero
  | insert j s hj ih =>
    rw [Finset.sum_insert hj]
    exact (h j (Finset.mem_insert_self j s)).add (ih fun i hi => h i (Finset.mem_insert_of_mem hi))

/-- THE LAW: with real factors, the weighted double sum in either order. -/
theorem sum_mul_sum_swap {ι κ : Type*} [Fintype κ] (s : Finset ι) (x : ι → κ → EReal) (r : ι → EReal) (W : κ → EReal)
    (hx : ∀ e k, IsReal (x e k)) (hr : ∀ e, IsReal (r e)) (hW : ∀ k, IsReal (W k)) :
    ∑ e ∈ s, (∑ k, x e k * W k) * r e = ∑ k, (∑ e ∈ s, x e k * r e) * W k := by
  classical
  choose x' hx' using hx
  choose r' hr' using hr
  choose W' hW' using hW
  simp only [hx', hr', hW', ← EReal.coe_mul, ← coe_finset_sum]
  refine congrArg _ ?_
  simp only [Finset.sum_mul]
  rw [Finset.sum_comm]
  exact Finset.sum_congr rfl fun k _ => Finset.sum_congr rfl fun e _ => by ring

end Cert.LibRealSum

end
-- ==== Proof.LibSoftmaxRow.lean ====
/-
  A softmax-weighted average of one row, in two arrangements.

  For scores `S k` and values `V k` over `n ≥ 1` keys, let `M` be the maximum of the scores (folded from -∞),
  `e k = exp (S k - M)` and `l = Σ_k e k`. One arrangement divides first and sums afterwards,
      Σ_k (e k / l) · V k ,
  the other sums first and divides once,
      (Σ_k e k · V k) / l .
  When every score and every value is a real number the maximum is a real number, every `e k` is a positive real and
  `l > 0`, so the quotient by `l` is the product with the real `1 / l`, which distributes over the finite sum: the two
  arrangements agree. (Over the extended reals in general they do not: the product does not distribute over a sum that
  mixes +∞ and -∞.)
-/
import Mathlib
import Idealize.ShloMosaic.PureOps.Ideal
import proofs.«105089_j48790828482913_2_alg».proof.Proof.LibRealSum

noncomputable section

open scoped BigOperators

namespace Cert.LibSoftmaxRow

open Idealize.ShloMosaic Cert.LibRealSum

variable {n : ℕ}

/-- The f32 word `0xFF800000` denotes -∞. -/
theorem ofBits_negInf : Ideal.ofBits .f32 0xFF800000#32 = ⊥ := by simp [Ideal.ofBits, Ideal.ieee]

/-- -∞ is the identity of `max`. -/
theorem max_negInf (y : EReal) : max (Ideal.ofBits .f32 0xFF800000#32) y = y := by
  rw [ofBits_negInf]; exact max_eq_right bot_le

/-- The maximum of `n` extended reals, folded from the f32 word of -∞. -/
def rowMax (S : Fin n → EReal) : EReal :=
  (Finset.univ : Finset (Fin n)).fold max (Ideal.ofBits .f32 0xFF800000#32) S

/-- The maximum of a nonempty family of reals is a real. -/
theorem isReal_rowMax (hn : 0 < n) (S : Fin n → EReal) (hS : ∀ k, IsReal (S k)) : IsReal (rowMax S) := by
  have htop : rowMax S ≠ ⊤ := by
    unfold rowMax
    rw [← lt_top_iff_ne_top, Finset.fold_max_lt]
    refine ⟨by rw [ofBits_negInf]; exact bot_lt_top, fun k _ => ?_⟩
    obtain ⟨a, ha⟩ := hS k
    rw [ha]; exact EReal.coe_lt_top a
  have hbot : rowMax S ≠ ⊥ := by
    unfold rowMax
    rw [← bot_lt_iff_ne_bot, Finset.lt_fold_max]
    refine Or.inr ⟨⟨0, hn⟩, Finset.mem_univ _, ?_⟩
    obtain ⟨a, ha⟩ := hS ⟨0, hn⟩
    rw [ha]; exact EReal.bot_lt_coe a
  exact ⟨(rowMax S).toReal, (EReal.coe_toReal htop hbot).symm⟩

/-- Divide each weight by the normaliser, then average: `Σ_k (e k / l) · V k`. -/
def softmaxAvg (S V : Fin n → EReal) : EReal :=
  ∑ k, Ideal.div (Ideal.exp (S k - rowMax S)) (∑ i, Ideal.exp (S i - rowMax S)) * V k

/-- Average with the unnormalised weights, then divide once: `(Σ_k e k · V k) / l`. -/
def softmaxQuot (S V : Fin n → EReal) : EReal :=
  Ideal.div (∑ k, Ideal.exp (S k - rowMax S) * V k) (∑ k, Ideal.exp (S k - rowMax S))

/-- With real scores and real values over at least one key the two arrangements agree. -/
theorem softmaxQuot_eq_softmaxAvg (hn : 0 < n) (S V : Fin n → EReal) (hS : ∀ k, IsReal (S k)) (hV : ∀ k, IsReal (V k)) :
    softmaxQuot S V = softmaxAvg S V := by
  obtain ⟨M, hM⟩ := isReal_rowMax hn S hS
  choose s hs using hS
  choose v hv using hV
  unfold softmaxQuot softmaxAvg
  rw [hM]
  have hexp : ∀ k, Ideal.exp (S k - (M : EReal)) = ((Real.exp (s k - M) : ℝ) : EReal) := fun k => by
    rw [hs k, ← EReal.coe_sub, Ideal.exp_coe]
  have hpos : (∑ i, Real.exp (s i - M)) ≠ 0 :=
    (Finset.sum_pos (fun _ _ => Real.exp_pos _) ⟨⟨0, hn⟩, Finset.mem_univ _⟩).ne'
  simp only [hexp, hv, ← EReal.coe_mul, ← coe_finset_sum, Ideal.div_coe hpos]
  refine congrArg _ ?_
  rw [Finset.sum_mul]
  exact Finset.sum_congr rfl fun k _ => by ring

end Cert.LibSoftmaxRow

end
-- ==== Proof.LibAxis2.lean ====
/-
  An array `[A, R, C]` reduced along its last axis, as a kernel and as the host compute it, and the two layout steps
  that carry a per-row result back over the row.

  Over the extended reals: the kernel's lane maximum from the word of -∞ and the host's reduce with a maximum body from
  the same word are both the fold of `max` over the `C` entries of row `(a, r)`; the kernel's lane sum and the host's sum
  from zero are both the plain sum of that row's entries. A result `[A, R]` recast as `[A, R, 1]` reads `(a, r)` at
  `(a, r, 0)`, and `[A, R, 1]` broadcast along the last axis to `[A, R, D]` reads `(a, r, 0)` at every `(a, r, d)`.
-/
import Mathlib
import Idealize.ShloMosaic.PureOps.Ideal
import Idealize.ShloMosaic.PureOps.Ideal.Laws
import Idealize.ShloMosaic.Lib.Pipeline.Value
import Idealize.ShloMosaic.Lib.ValueIdx
import proofs.«105089_j48790828482913_2_alg».proof.Proof.LibSoftmaxRow

noncomputable section

open scoped BigOperators

namespace Cert.LibAxis2

open Idealize.ShloMosaic Idealize.ShloMosaic.ValueIdx Cert.LibSoftmaxRow

variable {A R C D : Nat}

/-- The reduced index `(a, r)` with lane `k` put back on the last axis is `(a, r, k)`. -/
theorem lift_last (h : (⟨3, ![A, R, C]⟩ : Shape).Reduces [2] (⟨2, ![A, R]⟩ : Shape)) (a : Fin A) (r : Fin R)
    (k : Fin ((⟨3, ![A, R, C]⟩ : Shape).size 2)) : h.lift (ix2 a r) k = ix3 a r (⟨k.val, k.isLt⟩ : Fin C) := by
  funext c; apply Fin.ext
  fin_cases c <;> rfl

/-- The kernel's lane maximum of row `(a, r)`. -/
theorem multiReduction_max_last (src : FVec Ideal ⟨3, ![A, R, C]⟩ .f32)
    (h : (⟨3, ![A, R, C]⟩ : Shape).Reduces [2] (⟨2, ![A, R]⟩ : Shape)) (hφ : FKind.Formats .f32)
    (hacc : (0xFF800000#32 : BitVec 32) = FKind.maximumf.neutral .f32 hφ) (a : Fin A) (r : Fin R) :
    multiReduction .maximumf [2] (⟨2, ![A, R]⟩ : Shape) src 0xFF800000#32 h hφ hacc (ix2 a r)
      = rowMax fun k : Fin C => src (ix3 a r k) := by
  rw [Ideal.multiReduction_maximumf_single src _ h hφ hacc (ix2 a r)]
  have hf : (src ∘ h.lift (ix2 a r)) = fun k : Fin C => src (ix3 a r k) :=
    funext fun k => congrArg src (lift_last h a r k)
  unfold rowMax
  exact congrArg (fun f => Finset.fold max (Ideal.ofBits .f32 0xFF800000#32) f (Finset.univ : Finset (Fin C))) hf

/-- The host's reduce with a maximum body along the last axis, from the word of -∞, at row `(a, r)`. -/
theorem hostReduce_max_last (x : FVec Ideal ⟨3, ![A, R, C]⟩ .f32) (init : (⟨0, ![]⟩ : Shape).Idx → Ideal .f32)
    (hinit : ∀ i, init i = Ideal.ofBits .f32 0xFF800000#32)
    (h' : (⟨3, ![A, R, C]⟩ : Shape).ReducesTo [2] (⟨2, ![A, R]⟩ : Shape))
    (h : (⟨3, ![A, R, C]⟩ : Shape).Reduces [2] (⟨2, ![A, R]⟩ : Shape))
    (hu : 0 < (⟨0, ![]⟩ : Shape).numel) (a : Fin A) (r : Fin R) :
    Host.reduce FloatOps.maximumf x init h' hu (ix2 a r) = rowMax fun k : Fin C => x (ix3 a r k) := by
  rw [Host.reduce_eq_fold_single FloatOps.maximumf x _ h' h hu, hinit]
  have hf : (x ∘ h.lift (ix2 a r)) = fun k : Fin C => x (ix3 a r k) :=
    funext fun k => congrArg x (lift_last h a r k)
  unfold rowMax
  exact congrArg (fun f => Finset.fold max (Ideal.ofBits .f32 0xFF800000#32) f (Finset.univ : Finset (Fin C))) hf

/-- The kernel's lane sum of row `(a, r)`. -/
theorem multiReduction_add_last (src : FVec Ideal ⟨3, ![A, R, C]⟩ .f32)
    (h : (⟨3, ![A, R, C]⟩ : Shape).Reduces [2] (⟨2, ![A, R]⟩ : Shape)) (hφ : FKind.Formats .f32)
    (hacc : (0x00000000#32 : BitVec 32) = FKind.add.neutral .f32 hφ) (a : Fin A) (r : Fin R) :
    multiReduction .add [2] (⟨2, ![A, R]⟩ : Shape) src 0x00000000#32 h hφ hacc (ix2 a r) = ∑ k : Fin C, src (ix3 a r k) := by
  rw [Ideal.multiReduction_add_single src _ h hφ hacc (ix2 a r)]
  refine Finset.sum_congr rfl fun k _ => ?_
  exact congrArg src (lift_last h a r k)

/-- The host's sum along the last axis from zero, at row `(a, r)`. -/
theorem hostReduceAdd_last (x : FVec Ideal ⟨3, ![A, R, C]⟩ .f32) (init : EReal) (hinit : init = 0)
    (h' : (⟨3, ![A, R, C]⟩ : Shape).ReducesTo [2] (⟨2, ![A, R]⟩ : Shape))
    (h : (⟨3, ![A, R, C]⟩ : Shape).Reduces [2] (⟨2, ![A, R]⟩ : Shape)) (a : Fin A) (r : Fin R) :
    Ideal.hostReduceAdd h' x init (ix2 a r) = ∑ k : Fin C, x (ix3 a r k) := by
  rw [Ideal.hostReduceAdd_single h' h, hinit, zero_add]
  refine Finset.sum_congr rfl fun k _ => ?_
  exact congrArg x (lift_last h a r k)

/-- `[A, R]` recast as `[A, R, 1]` reads `(a, r)` at `(a, r, 0)`. -/
theorem shapeCast_keepdims_apply {α : Type} (v : (⟨2, ![A, R]⟩ : Shape).Idx → α)
    (h : (⟨2, ![A, R]⟩ : Shape).ShapeCasts ⟨3, ![A, R, 1]⟩) (a : Fin A) (r : Fin R) :
    shapeCast ⟨3, ![A, R, 1]⟩ v h (ix3 a r (0 : Fin 1)) = v (ix2 a r) := by
  refine shapeCast_apply v h _ _ ?_
  rw [Shape.rowMajor_val_three, Shape.rowMajor_val_two]
  show a.val * R + r.val = (a.val * R + r.val) * 1 + 0
  omega

/-- `[A, R, 1]` broadcast along the last axis to `[A, R, D]` reads `(a, r, 0)` at `(a, r, d)`, when `A, R ≠ 1` or not. -/
theorem broadcastTo_last_apply {α : Type} (v : (⟨3, ![A, R, 1]⟩ : Shape).Idx → α)
    (h : (⟨3, ![A, R, 1]⟩ : Shape).Broadcasts ⟨3, ![A, R, D]⟩) (a : Fin A) (r : Fin R) (d : Fin D) :
    broadcastTo ⟨3, ![A, R, D]⟩ v h (ix3 a r d) = v (ix3 a r (0 : Fin 1)) := by
  refine broadcastTo_apply v h _ _ fun c => ?_
  match c with
  | ⟨0, _⟩ =>
    show a.val = if A = 1 then 0 else a.val
    split
    · next hA => have := a.isLt; omega
    · rfl
  | ⟨1, _⟩ =>
    show r.val = if R = 1 then 0 else r.val
    split
    · next hR => have := r.isLt; omega
    · rfl
  | ⟨2, _⟩ =>
    show 0 = if (1 : Nat) = 1 then 0 else d.val
    rw [if_pos rfl]

end Cert.LibAxis2

end
-- ==== Proof.KernelRow.lean ====
/-
  What one grid point's body computes, read at an entry of its output block.

  The body takes a block `x0 : [1, 512, 512]` of queries and the whole key and value slabs `x1, x2 : [1, 2048, 512]` of
  one batch. Over the extended reals, where a change of float format is the identity, entry `(0, p, d)` of what it stores
  is, with `s k = Σ_e x0[0,p,e] · x1[0,k,e]` the scores of query row `p`, `M = max_k s k`, `w k = exp (s k - M)`:
      (Σ_k w k · x2[0,k,d]) / (Σ_k w k) ,
  the row's softmax-weighted average of column `d` of the values in the arrangement that divides once at the end.
-/
import proofs.«105089_j48790828482913_2_alg».proof.Proof.Gen.KernelIdeal.Skeleton
import Idealize.ShloMosaic.PureOps.Ideal.Laws
import Idealize.ShloMosaic.Lib.ValueIdx
import Idealize.ShloMosaic.Lib.Pipeline.Value
import proofs.«105089_j48790828482913_2_alg».proof.Proof.LibAxis2

noncomputable section

open scoped BigOperators

namespace Cert.KernelIdeal.Row

open Cert.KernelIdeal Cert.KernelIdeal.Gen Idealize.ShloMosaic Idealize.ShloMosaic.ValueIdx
open Cert.LibSoftmaxRow Cert.LibAxis2

/-! ## The two matrix products at an entry -/

theorem qk_lhs0 (i : S1x512x2048.Idx) (q : dot_S1x512x512_S1x2048x512_S1x512x2048_2_2_1_1_0_0.contr.Idx) : (dot_S1x512x512_S1x2048x512_S1x512x2048_2_2_1_1_0_0.lhsIdx i q 0).val = (i 0).val := by
  unfold DotDims.lhsIdx
  rw [dif_pos (show (0 : Fin S1x512x512.rank) ∈ dot_S1x512x512_S1x2048x512_S1x512x2048_2_2_1_1_0_0.lhsBatch by decide)]
  rfl
theorem qk_lhs1 (i : S1x512x2048.Idx) (q : dot_S1x512x512_S1x2048x512_S1x512x2048_2_2_1_1_0_0.contr.Idx) : (dot_S1x512x512_S1x2048x512_S1x512x2048_2_2_1_1_0_0.lhsIdx i q 1).val = (i 1).val := by
  unfold DotDims.lhsIdx
  rw [dif_neg (show ¬(1 : Fin S1x512x512.rank) ∈ dot_S1x512x512_S1x2048x512_S1x512x2048_2_2_1_1_0_0.lhsBatch by decide), dif_pos (show (1 : Fin S1x512x512.rank) ∈ dot_S1x512x512_S1x2048x512_S1x512x2048_2_2_1_1_0_0.lhsNonContracting by decide)]
  rfl
theorem qk_lhs2 (i : S1x512x2048.Idx) (q : dot_S1x512x512_S1x2048x512_S1x512x2048_2_2_1_1_0_0.contr.Idx) : (dot_S1x512x512_S1x2048x512_S1x512x2048_2_2_1_1_0_0.lhsIdx i q 2).val = (q ⟨0, by decide⟩).val :=
  dot_S1x512x512_S1x2048x512_S1x512x2048_2_2_1_1_0_0.lhsIdx_val_of_single rfl i q
theorem qk_rhs0 (i : S1x512x2048.Idx) (q : dot_S1x512x512_S1x2048x512_S1x512x2048_2_2_1_1_0_0.contr.Idx) : (dot_S1x512x512_S1x2048x512_S1x512x2048_2_2_1_1_0_0.rhsIdx i q 0).val = (i 0).val := by
  unfold DotDims.rhsIdx
  rw [dif_pos (show (0 : Fin S1x2048x512.rank) ∈ dot_S1x512x512_S1x2048x512_S1x512x2048_2_2_1_1_0_0.rhsBatch by decide)]
  rfl
theorem qk_rhs1 (i : S1x512x2048.Idx) (q : dot_S1x512x512_S1x2048x512_S1x512x2048_2_2_1_1_0_0.contr.Idx) : (dot_S1x512x512_S1x2048x512_S1x512x2048_2_2_1_1_0_0.rhsIdx i q 1).val = (i 2).val := by
  unfold DotDims.rhsIdx
  rw [dif_neg (show ¬(1 : Fin S1x2048x512.rank) ∈ dot_S1x512x512_S1x2048x512_S1x512x2048_2_2_1_1_0_0.rhsBatch by decide), dif_pos (show (1 : Fin S1x2048x512.rank) ∈ dot_S1x512x512_S1x2048x512_S1x512x2048_2_2_1_1_0_0.rhsNonContracting by decide)]
  rfl
theorem qk_rhs2 (i : S1x512x2048.Idx) (q : dot_S1x512x512_S1x2048x512_S1x512x2048_2_2_1_1_0_0.contr.Idx) : (dot_S1x512x512_S1x2048x512_S1x512x2048_2_2_1_1_0_0.rhsIdx i q 2).val = (q ⟨0, by decide⟩).val :=
  dot_S1x512x512_S1x2048x512_S1x512x2048_2_2_1_1_0_0.rhsIdx_val_of_single rfl i q

/-- Query rows against key rows: entry `(0, p, k)` of the product contracts the last axis of both operands. -/
theorem matmul_qk_apply (a : FVec Ideal S1x512x512 .bf16) (b : FVec Ideal S1x2048x512 .bf16) (p : Fin 512) (k : Fin 2048) :
    matmul dot_S1x512x512_S1x2048x512_S1x512x2048_2_2_1_1_0_0 none a b (constant S1x512x2048 .f32 0x00000000#32) (ix3 (0 : Fin 1) p k)
      = ∑ e : Fin 512, a (ix3 (0 : Fin 1) p e) * b (ix3 (0 : Fin 1) k e) := by
  simp only [matmul]
  rw [Ideal.matmul_constant_zero_apply, ← Equiv.sum_comp (ValueIdx.contrEquiv1 dot_S1x512x512_S1x2048x512_S1x512x2048_2_2_1_1_0_0 512 rfl rfl).symm]
  refine Finset.sum_congr rfl fun e _ => ?_
  have hk := ValueIdx.contrEquiv1_symm_val dot_S1x512x512_S1x2048x512_S1x512x2048_2_2_1_1_0_0 512 rfl rfl e
  have el : dot_S1x512x512_S1x2048x512_S1x512x2048_2_2_1_1_0_0.lhsIdx (ix3 (0 : Fin 1) p k) ((ValueIdx.contrEquiv1 dot_S1x512x512_S1x2048x512_S1x512x2048_2_2_1_1_0_0 512 rfl rfl).symm e) = ix3 (0 : Fin 1) p e := funext fun c => Fin.ext (by
    match c with
    | ⟨0, _⟩ => exact qk_lhs0 _ _
    | ⟨1, _⟩ => exact qk_lhs1 _ _
    | ⟨2, _⟩ => exact (qk_lhs2 _ _).trans hk)
  have er : dot_S1x512x512_S1x2048x512_S1x512x2048_2_2_1_1_0_0.rhsIdx (ix3 (0 : Fin 1) p k) ((ValueIdx.contrEquiv1 dot_S1x512x512_S1x2048x512_S1x512x2048_2_2_1_1_0_0 512 rfl rfl).symm e) = ix3 (0 : Fin 1) k e := funext fun c => Fin.ext (by
    match c with
    | ⟨0, _⟩ => exact qk_rhs0 _ _
    | ⟨1, _⟩ => exact qk_rhs1 _ _
    | ⟨2, _⟩ => exact (qk_rhs2 _ _).trans hk)
  rw [el, er]

theorem pv_lhs0 (i : S1x512x512.Idx) (q : dot_S1x512x2048_S1x2048x512_S1x512x512_2_1_1_2_0_0.contr.Idx) : (dot_S1x512x2048_S1x2048x512_S1x512x512_2_1_1_2_0_0.lhsIdx i q 0).val = (i 0).val := by
  unfold DotDims.lhsIdx
  rw [dif_pos (show (0 : Fin S1x512x2048.rank) ∈ dot_S1x512x2048_S1x2048x512_S1x512x512_2_1_1_2_0_0.lhsBatch by decide)]
  rfl
theorem pv_lhs1 (i : S1x512x512.Idx) (q : dot_S1x512x2048_S1x2048x512_S1x512x512_2_1_1_2_0_0.contr.Idx) : (dot_S1x512x2048_S1x2048x512_S1x512x512_2_1_1_2_0_0.lhsIdx i q 1).val = (i 1).val := by
  unfold DotDims.lhsIdx
  rw [dif_neg (show ¬(1 : Fin S1x512x2048.rank) ∈ dot_S1x512x2048_S1x2048x512_S1x512x512_2_1_1_2_0_0.lhsBatch by decide), dif_pos (show (1 : Fin S1x512x2048.rank) ∈ dot_S1x512x2048_S1x2048x512_S1x512x512_2_1_1_2_0_0.lhsNonContracting by decide)]
  rfl
theorem pv_lhs2 (i : S1x512x512.Idx) (q : dot_S1x512x2048_S1x2048x512_S1x512x512_2_1_1_2_0_0.contr.Idx) : (dot_S1x512x2048_S1x2048x512_S1x512x512_2_1_1_2_0_0.lhsIdx i q 2).val = (q ⟨0, by decide⟩).val :=
  dot_S1x512x2048_S1x2048x512_S1x512x512_2_1_1_2_0_0.lhsIdx_val_of_single rfl i q
theorem pv_rhs0 (i : S1x512x512.Idx) (q : dot_S1x512x2048_S1x2048x512_S1x512x512_2_1_1_2_0_0.contr.Idx) : (dot_S1x512x2048_S1x2048x512_S1x512x512_2_1_1_2_0_0.rhsIdx i q 0).val = (i 0).val := by
  unfold DotDims.rhsIdx
  rw [dif_pos (show (0 : Fin S1x2048x512.rank) ∈ dot_S1x512x2048_S1x2048x512_S1x512x512_2_1_1_2_0_0.rhsBatch by decide)]
  rfl
theorem pv_rhs1 (i : S1x512x512.Idx) (q : dot_S1x512x2048_S1x2048x512_S1x512x512_2_1_1_2_0_0.contr.Idx) : (dot_S1x512x2048_S1x2048x512_S1x512x512_2_1_1_2_0_0.rhsIdx i q 1).val = (q ⟨0, by decide⟩).val :=
  dot_S1x512x2048_S1x2048x512_S1x512x512_2_1_1_2_0_0.rhsIdx_val_of_single rfl i q
theorem pv_rhs2 (i : S1x512x512.Idx) (q : dot_S1x512x2048_S1x2048x512_S1x512x512_2_1_1_2_0_0.contr.Idx) : (dot_S1x512x2048_S1x2048x512_S1x512x512_2_1_1_2_0_0.rhsIdx i q 2).val = (i 2).val := by
  unfold DotDims.rhsIdx
  rw [dif_neg (show ¬(2 : Fin S1x2048x512.rank) ∈ dot_S1x512x2048_S1x2048x512_S1x512x512_2_1_1_2_0_0.rhsBatch by decide), dif_pos (show (2 : Fin S1x2048x512.rank) ∈ dot_S1x512x2048_S1x2048x512_S1x512x512_2_1_1_2_0_0.rhsNonContracting by decide)]
  rfl

/-- Weights against value rows: entry `(0, p, d)` of the product contracts the keys. -/
theorem matmul_pv_apply (w : FVec Ideal S1x512x2048 .bf16) (v : FVec Ideal S1x2048x512 .bf16) (p : Fin 512) (d : Fin 512) :
    matmul dot_S1x512x2048_S1x2048x512_S1x512x512_2_1_1_2_0_0 none w v (constant S1x512x512 .f32 0x00000000#32) (ix3 (0 : Fin 1) p d)
      = ∑ k : Fin 2048, w (ix3 (0 : Fin 1) p k) * v (ix3 (0 : Fin 1) k d) := by
  simp only [matmul]
  rw [Ideal.matmul_constant_zero_apply, ← Equiv.sum_comp (ValueIdx.contrEquiv1 dot_S1x512x2048_S1x2048x512_S1x512x512_2_1_1_2_0_0 2048 rfl rfl).symm]
  refine Finset.sum_congr rfl fun k _ => ?_
  have hk := ValueIdx.contrEquiv1_symm_val dot_S1x512x2048_S1x2048x512_S1x512x512_2_1_1_2_0_0 2048 rfl rfl k
  have el : dot_S1x512x2048_S1x2048x512_S1x512x512_2_1_1_2_0_0.lhsIdx (ix3 (0 : Fin 1) p d) ((ValueIdx.contrEquiv1 dot_S1x512x2048_S1x2048x512_S1x512x512_2_1_1_2_0_0 2048 rfl rfl).symm k) = ix3 (0 : Fin 1) p k := funext fun c => Fin.ext (by
    match c with
    | ⟨0, _⟩ => exact pv_lhs0 _ _
    | ⟨1, _⟩ => exact pv_lhs1 _ _
    | ⟨2, _⟩ => exact (pv_lhs2 _ _).trans hk)
  have er : dot_S1x512x2048_S1x2048x512_S1x512x512_2_1_1_2_0_0.rhsIdx (ix3 (0 : Fin 1) p d) ((ValueIdx.contrEquiv1 dot_S1x512x2048_S1x2048x512_S1x512x512_2_1_1_2_0_0 2048 rfl rfl).symm k) = ix3 (0 : Fin 1) k d := funext fun c => Fin.ext (by
    match c with
    | ⟨0, _⟩ => exact pv_rhs0 _ _
    | ⟨1, _⟩ => exact (pv_rhs1 _ _).trans hk
    | ⟨2, _⟩ => exact pv_rhs2 _ _)
  rw [el, er]

/-! ## The stages of the body -/

/-- The scores of the block's query rows against all keys. -/
def scores (x0 : Vec Ideal S1x512x512 .f32) (x1 : FVec Ideal S1x2048x512 .bf16) : FVec Ideal S1x512x2048 .f32 :=
  matmul (φ₁ := .bf16) (φ₂ := .bf16) dot_S1x512x512_S1x2048x512_S1x512x2048_2_2_1_1_0_0 none (truncf .bf16 x0 bitsLt_bf16_f32) x1 (constant S1x512x2048 .f32 0x00000000#32)

/-- Each query row's maximal score. -/
def rowMaxes (x0 : Vec Ideal S1x512x512 .f32) (x1 : FVec Ideal S1x2048x512 .bf16) : FVec Ideal S1x512 .f32 :=
  multiReduction .maximumf [2] S1x512 (scores x0 x1) 0xFF800000#32 reduces_S1x512x2048_S1x512 (.inl rfl) rfl

/-- The unnormalised weights: the exponential of each score less its row's maximum. -/
def weights (x0 : Vec Ideal S1x512x512 .f32) (x1 : FVec Ideal S1x2048x512 .bf16) : FVec Ideal S1x512x2048 .f32 :=
  exp (subf (scores x0 x1)
    (broadcastTo S1x512x2048 (shapeCast S1x512x1 (rowMaxes x0 x1) shapeCasts_S1x512_S1x512x1) broadcasts_S1x512x1_S1x512x2048))

/-- Each query row's normaliser: the sum of its weights. -/
def rowSums (x0 : Vec Ideal S1x512x512 .f32) (x1 : FVec Ideal S1x2048x512 .bf16) : FVec Ideal S1x512 .f32 :=
  multiReduction .add [2] S1x512 (weights x0 x1) 0x00000000#32 reduces_S1x512x2048_S1x512 (.inl rfl) rfl

/-- The score of query row `p` against key `k`. -/
def rowScore (x0 : Vec Ideal S1x512x512 .f32) (x1 : FVec Ideal S1x2048x512 .bf16) (p : Fin 512) (k : Fin 2048) : EReal :=
  ∑ e : Fin 512, x0 (ix3 (0 : Fin 1) p e) * x1 (ix3 (0 : Fin 1) k e)

theorem scores_apply (x0 : Vec Ideal S1x512x512 .f32) (x1 : FVec Ideal S1x2048x512 .bf16) (p : Fin 512) (k : Fin 2048) :
    scores x0 x1 (ix3 (0 : Fin 1) p k) = rowScore x0 x1 p k :=
  matmul_qk_apply (truncf .bf16 x0 bitsLt_bf16_f32) x1 p k

theorem rowMaxes_apply (x0 : Vec Ideal S1x512x512 .f32) (x1 : FVec Ideal S1x2048x512 .bf16) (p : Fin 512) :
    rowMaxes x0 x1 (ix2 (0 : Fin 1) p) = rowMax fun k => rowScore x0 x1 p k :=
  (multiReduction_max_last (scores x0 x1) reduces_S1x512x2048_S1x512 (.inl rfl) rfl (0 : Fin 1) p).trans
    (by simp only [scores_apply])

theorem weights_apply (x0 : Vec Ideal S1x512x512 .f32) (x1 : FVec Ideal S1x2048x512 .bf16) (p : Fin 512) (k : Fin 2048) :
    weights x0 x1 (ix3 (0 : Fin 1) p k) = Ideal.exp (rowScore x0 x1 p k - rowMax fun k' => rowScore x0 x1 p k') := by
  unfold weights
  show Ideal.exp (scores x0 x1 (ix3 (0 : Fin 1) p k) - broadcastTo S1x512x2048 _ broadcasts_S1x512x1_S1x512x2048 (ix3 (0 : Fin 1) p k)) = _
  rw [broadcastTo_last_apply, shapeCast_keepdims_apply, rowMaxes_apply, scores_apply]

theorem rowSums_apply (x0 : Vec Ideal S1x512x512 .f32) (x1 : FVec Ideal S1x2048x512 .bf16) (p : Fin 512) :
    rowSums x0 x1 (ix2 (0 : Fin 1) p)
      = ∑ k : Fin 2048, Ideal.exp (rowScore x0 x1 p k - rowMax fun k' => rowScore x0 x1 p k') :=
  (multiReduction_add_last (weights x0 x1) reduces_S1x512x2048_S1x512 (.inl rfl) rfl (0 : Fin 1) p).trans
    (by simp only [weights_apply])

/-- The body's payload in terms of the stages. -/
theorem pay_eq (x0 : Vec Ideal S1x512x512 .f32) (x1 x2 : FVec Ideal S1x2048x512 .bf16) :
    k0_pay3 x0 x1 x2
      = divf (matmul (φ₁ := .bf16) (φ₂ := .bf16) dot_S1x512x2048_S1x2048x512_S1x512x512_2_1_1_2_0_0 none (truncf .bf16 (weights x0 x1) bitsLt_bf16_f32) x2 (constant S1x512x512 .f32 0x00000000#32))
          (broadcastTo S1x512x512 (shapeCast S1x512x1 (rowSums x0 x1) shapeCasts_S1x512_S1x512x1) broadcasts_S1x512x1_S1x512x512) := rfl

/-- THE PAYLOAD AT AN ENTRY: the softmax-weighted average of the values' column `d` over row `p`'s scores, divided once. -/
theorem pay_apply (x0 : Vec Ideal S1x512x512 .f32) (x1 x2 : FVec Ideal S1x2048x512 .bf16) (p d : Fin 512) :
    k0_pay3 x0 x1 x2 (ix3 (0 : Fin 1) p d)
      = softmaxQuot (fun k => rowScore x0 x1 p k) (fun k => x2 (ix3 (0 : Fin 1) k d)) := by
  rw [pay_eq]
  have h1 : matmul (φ₁ := .bf16) (φ₂ := .bf16) dot_S1x512x2048_S1x2048x512_S1x512x512_2_1_1_2_0_0 none (truncf .bf16 (weights x0 x1) bitsLt_bf16_f32) x2 (constant S1x512x512 .f32 0x00000000#32) (ix3 (0 : Fin 1) p d)
      = ∑ k : Fin 2048, Ideal.exp (rowScore x0 x1 p k - rowMax fun k' => rowScore x0 x1 p k') * x2 (ix3 (0 : Fin 1) k d) := by
    rw [matmul_pv_apply]
    refine Finset.sum_congr rfl fun k _ => ?_
    show weights x0 x1 (ix3 (0 : Fin 1) p k) * _ = _
    rw [weights_apply]
  have h2 : broadcastTo S1x512x512 (shapeCast S1x512x1 (rowSums x0 x1) shapeCasts_S1x512_S1x512x1) broadcasts_S1x512x1_S1x512x512 (ix3 (0 : Fin 1) p d)
      = ∑ k : Fin 2048, Ideal.exp (rowScore x0 x1 p k - rowMax fun k' => rowScore x0 x1 p k') := by
    rw [broadcastTo_last_apply, shapeCast_keepdims_apply, rowSums_apply]
  unfold softmaxQuot
  exact congrArg₂ Ideal.div h1 h2

end Cert.KernelIdeal.Row

end
-- ==== Proof.Spec.lean ====
/-
  The attention output as one function of the three argument arrays.

  For queries, keys and values `Q, K, V : [8, 2048, 512]` over the extended reals, the score of query row `(b, q)` against
  key `k` of the same batch is `Σ_e Q[b,q,e] · K[b,k,e]`, and the output at `(b, q, d)` is the softmax-weighted average
  over the keys of `V[b,k,d]`, each weight divided by the row's normaliser before it is used.
  When the arrays hold real numbers the scores are real, so the arrangement that divides once at the end gives the same
  number.
-/
import Mathlib
import Idealize.ShloMosaic.PureOps.Ideal
import Idealize.ShloMosaic.Lib.ValueIdx
import proofs.«105089_j48790828482913_2_alg».proof.Proof.LibSoftmaxRow

noncomputable section

open scoped BigOperators

namespace Cert.Attn

open Idealize.ShloMosaic Idealize.ShloMosaic.ValueIdx Cert.LibSoftmaxRow Cert.LibRealSum

/-- An array `[8, 2048, 512]` of extended reals. -/
abbrev Arr : Type := (⟨3, ![8, 2048, 512]⟩ : Shape).Idx → EReal

/-- The score of query row `(b, q)` against key `k`. -/
def score (Q K : Arr) (b : Fin 8) (q k : Fin 2048) : EReal :=
  ∑ e : Fin 512, Q (ix3 b q e) * K (ix3 b k e)

/-- Dense attention without scaling: softmax of the scores along the keys, then the weighted average of the values. -/
def attn (Q K V : Arr) : Arr := fun i =>
  softmaxAvg (fun k => score Q K (i 0) (i 1) k) (fun k => V (ix3 (i 0) k (i 2)))

theorem attn_apply (Q K V : Arr) (b : Fin 8) (q : Fin 2048) (d : Fin 512) :
    attn Q K V (ix3 b q d) = softmaxAvg (fun k => score Q K b q k) (fun k => V (ix3 b k d)) := rfl

/-- A score of real queries and keys is real. -/
theorem isReal_score (Q K : Arr) (hQ : ∀ i, IsReal (Q i)) (hK : ∀ i, IsReal (K i)) (b : Fin 8) (q k : Fin 2048) :
    IsReal (score Q K b q k) :=
  isReal_sum _ _ fun e _ => (hQ _).mul (hK _)

/-- On real arrays, dividing once at the end gives the attention output. -/
theorem softmaxQuot_eq_attn (Q K V : Arr) (hQ : ∀ i, IsReal (Q i)) (hK : ∀ i, IsReal (K i)) (hV : ∀ i, IsReal (V i))
    (b : Fin 8) (q : Fin 2048) (d : Fin 512) :
    softmaxQuot (fun k => score Q K b q k) (fun k => V (ix3 b k d)) = attn Q K V (ix3 b q d) :=
  softmaxQuot_eq_softmaxAvg (by norm_num) _ _ (fun k => isReal_score Q K hQ hK b q k) (fun k => hV _)

end Cert.Attn

end
-- ==== Proof.Blocks.lean ====
/-
  The kernel's output array after the run is the attention output of its arguments, when these hold real numbers.

  What grid point `t` writes back is the body's result on the query block of `t` and the copies of the key and value slabs
  of `t`'s batch. Over the extended reals the copies are the slabs themselves, so entry `(0, p, d)` of the block written
  back is the once-divided softmax average over the scores of query row `512 · (t % 4) + p` of batch `t / 4`; on real
  arrays that is the attention output at `(t / 4, 512 · (t % 4) + p, d)`, which is where the block's entry sits in the
  array. The 32 blocks tile the array: entry `(b, r, d)` lies in the block of point `4 b + r / 512`.
-/
import proofs.«105089_j48790828482913_2_alg».proof.Proof.Gen.KernelIdeal.Value
import proofs.«105089_j48790828482913_2_alg».proof.Proof.Carried
import proofs.«105089_j48790828482913_2_alg».proof.Proof.KernelRow
import proofs.«105089_j48790828482913_2_alg».proof.Proof.Spec

noncomputable section

open scoped BigOperators

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.BlockReads Cert.KernelIdeal.Carried Cert.KernelIdeal.Row
open Cert.LibSoftmaxRow Cert.LibRealSum Cert.Attn

variable (m : (ℓ : Loc nD τ sig) → Buf (Elt Ideal) ℓ) (ρ : Dev nD → PrngReg)

/-- Over the extended reals the copy of the key slab is the slab, entry by entry. -/
theorem pay1_apply (x : Vec Ideal S1x2048x512 .f32) (y : S1x2048x512.Idx) : k0_pay1 x y = x y :=
  congrFun (shapeCast_self (truncf (F := Ideal) .bf16 x bitsLt_bf16_f32) shapeCasts_S1x2048x512_S1x2048x512) y

/-- Over the extended reals the copy of the value slab is the slab, entry by entry. -/
theorem pay2_apply (x : Vec Ideal S1x2048x512 .f32) (y : S1x2048x512.Idx) : k0_pay2 x y = x y :=
  congrFun (shapeCast_self (truncf (F := Ideal) .bf16 x bitsLt_bf16_f32) shapeCasts_S1x2048x512_S1x2048x512) y

/-- WHAT POINT `t` WRITES BACK is block `t` of the attention output of the argument arrays. -/
theorem flushed_eq (c : Dev nD) (hQ : ∀ i, IsReal ((m ((c : Thread nD τ).loc main_arg0)) i)) (hK : ∀ i, IsReal ((m ((c : Thread nD τ).loc main_arg1)) i))
    (hV : ∀ i, IsReal ((m ((c : Thread nD τ).loc main_arg2)) i)) (t : Fin cfg0.N) :
    (dats m 0 c).flushed 3 t
      = ((cfg0.win 3).blk t).view.read (Elt Ideal) (attn (m ((c : Thread nD τ).loc main_arg0)) (m ((c : Thread nD τ).loc main_arg1)) (m ((c : Thread nD τ).loc main_arg2))) := by
  rw [Value.flushed3, out_at m c t]
  refine funext fun (y : S1x512x512.Idx) => ?_
  obtain ⟨y0, p, d, rfl⟩ : ∃ (y0 : Fin 1) (p : Fin 512) (d : Fin 512), y = ix3 y0 p d := ⟨y 0, y 1, y 2, eq_ix3 y⟩
  obtain rfl : y0 = 0 := Subsingleton.elim _ _
  show k0_pay3 (iblk m c 0 t) (k0_pay1 (iblk m c 1 t)) (k0_pay2 (iblk m c 2 t)) (ix3 (0 : Fin 1) p d)
    = attn (m ((c : Thread nD τ).loc main_arg0)) (m ((c : Thread nD τ).loc main_arg1)) (m ((c : Thread nD τ).loc main_arg2)) (((cfg0.win 3).blk t).view.emb (ix3 (0 : Fin 1) p d))
  rw [emb3 t p d, ← softmaxQuot_eq_attn _ _ _ hQ hK hV]
  refine (pay_apply (iblk m c 0 t) (k0_pay1 (iblk m c 1 t)) (k0_pay2 (iblk m c 2 t)) p d).trans ?_
  have hs : (fun k => rowScore (iblk m c 0 t) (k0_pay1 (iblk m c 1 t)) p k)
      = fun k => score (m ((c : Thread nD τ).loc main_arg0)) (m ((c : Thread nD τ).loc main_arg1)) (batchOf t) (rowOf t p) k := by
    funext k
    unfold rowScore score
    refine Finset.sum_congr rfl fun e _ => ?_
    rw [pay1_apply, iblk0_apply, iblk1_apply]
  have hv : (fun k => k0_pay2 (iblk m c 2 t) (ix3 (0 : Fin 1) k d))
      = fun k => (m ((c : Thread nD τ).loc main_arg2)) (ix3 (batchOf t) k d) := by
    funext k
    rw [pay2_apply, iblk2_apply]
  rw [hs, hv]

/-- An entry of the array is in point `t`'s block iff each coordinate is in the block's range on its axis. -/
theorem mem_blk (t : Fin cfg0.N) (i : S8x2048x512.Idx) :
    i ∈ ((cfg0.win 3).blk t).view.set ↔ ∀ a : Fin 3, win0_3.index t a * S1x512x512.size a ≤ (i a).val ∧ (i a).val < win0_3.index t a * S1x512x512.size a + S1x512x512.size a := by
  show i ∈ ((View.whole main_v0).slice (win0_3.rect t)).set ↔ _
  rw [View.set_slice_whole, Rect.mem_set_unit]
  exact Iff.rfl

/-- THE BLOCKS TILE THE ARRAY: entry `(b, r, d)` is in the block of point `4 b + r / 512`. -/
theorem cover (i : S8x2048x512.Idx) : ∃ t : Fin cfg0.N, (cfg0.win 3).flush t = true ∧ i ∈ ((cfg0.win 3).blk t).view.set := by
  have hN : cfg0.N = 32 := N_0
  have h0 : (i 0).val < 8 := (i 0).isLt
  have h1 : (i 1).val < 2048 := (i 1).isLt
  have h2 : (i 2).val < 512 := (i 2).isLt
  obtain ⟨t, ht⟩ : ∃ t : Fin cfg0.N, t.val = (i 0).val * 4 + (i 1).val / 512 := ⟨⟨(i 0).val * 4 + (i 1).val / 512, by omega⟩, rfl⟩
  obtain ⟨-, -, -, -, -, -, -, -, -, e0, e1, e2⟩ := idx_facts t
  refine ⟨t, flush0_3 t, ?_⟩
  rw [mem_blk]
  intro a
  match a with
  | ⟨0, _⟩ =>
    show win0_3.index t (0 : Fin 3) * 1 ≤ (i 0).val ∧ (i 0).val < win0_3.index t (0 : Fin 3) * 1 + 1
    rw [e0, ht]; omega
  | ⟨1, _⟩ =>
    show win0_3.index t (1 : Fin 3) * 512 ≤ (i 1).val ∧ (i 1).val < win0_3.index t (1 : Fin 3) * 512 + 512
    rw [e1, ht]; omega
  | ⟨2, _⟩ =>
    show win0_3.index t (2 : Fin 3) * 512 ≤ (i 2).val ∧ (i 2).val < win0_3.index t (2 : Fin 3) * 512 + 512
    rw [e2]; omega

/-- THE ARRAY AFTER THE RUN is the attention output of the argument arrays. -/
theorem final (c : Dev nD) (hQ : ∀ i, IsReal ((m ((c : Thread nD τ).loc main_arg0)) i)) (hK : ∀ i, IsReal ((m ((c : Thread nD τ).loc main_arg1)) i))
    (hV : ∀ i, IsReal ((m ((c : Thread nD τ).loc main_arg2)) i)) :
    (dats m 0 c).arrAt 3 cfg0.N = attn (m ((c : Thread nD τ).loc main_arg0)) (m ((c : Thread nD τ).loc main_arg1)) (m ((c : Thread nD τ).loc main_arg2)) :=
  (dats m 0 c).arrAt_eq_of_cover 3 (attn (m ((c : Thread nD τ).loc main_arg0)) (m ((c : Thread nD τ).loc main_arg1)) (m ((c : Thread nD τ).loc main_arg2)))
    (fun t _ => flushed_eq m c hQ hK hV t) cover

/-- The kernel's run, read: the output array at the attention output of the arguments, the arguments unchanged. -/
theorem run (hreal : ∀ c : Dev nD, (∀ i, IsReal ((m ((c : Thread nD τ).loc main_arg0)) i)) ∧ (∀ i, IsReal ((m ((c : Thread nD τ).loc main_arg1)) i)) ∧ (∀ i, IsReal ((m ((c : Thread nD τ).loc main_arg2)) i))) :
    θ_run defs (onTc (τ := τ) (main (F := Ideal))) ⟨m, fun _ => 0, ρ⟩ fun r => ∀ c : Dev nD,
      r.2.mem ((c : Thread nD τ).loc main_v0) = attn (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono
    (fun r h c => ⟨(h c).1.trans (final m c (hreal c).1 (hreal c).2.1 (hreal c).2.2), (h c).2⟩)
    (Value.run_blocks m ρ)

end Cert.KernelIdeal.Blocks

end
-- ==== Proof.RefAttn.lean ====
/-
  The reference computes the attention output.

  Its operations, read one at a time at an entry: the scores `Σ_e Q[b,q,e] · K[b,k,e]`; each row's maximum, folded from
  -∞ (and then once more compared with -∞, which changes nothing); the exponential of each score less its row's maximum;
  each row's sum of those, from zero; their quotient; and the product of the quotients with the values along the keys.
-/
import proofs.«105089_j48790828482913_2_alg».proof.Proof.Gen.ReferenceIdeal.Read
import proofs.«105089_j48790828482913_2_alg».proof.Proof.LibAxis2
import proofs.«105089_j48790828482913_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.LibSoftmaxRow Cert.LibAxis2 Cert.Attn

variable (x0 x1 x2 : (⟨S8x2048x512, .f32⟩ : BufTy).Contents (Elt Ideal))

/-- The first product's entry `(b, q, k)` is the score of row `(b, q)` against key `k`. -/
theorem v0_at (b : Fin 8) (q k : Fin 2048) : val_main_v0 (F := Ideal) x0 x1 (ix3 b q k) = score x0 x1 b q k := by
  rw [val_main_v0_apply]
  unfold score
  refine Finset.sum_congr rfl fun e _ => ?_
  have el : lidx_main_v0 (ix3 b q k) e = ix3 b q e :=
    funext fun a => Fin.ext (by match a with | ⟨0, _⟩ => rfl | ⟨1, _⟩ => rfl | ⟨2, _⟩ => rfl)
  have er : ridx_main_v0 (ix3 b q k) e = ix3 b k e :=
    funext fun a => Fin.ext (by match a with | ⟨0, _⟩ => rfl | ⟨1, _⟩ => rfl | ⟨2, _⟩ => rfl)
  rw [el, er]

/-- The row maximum, after the extra comparison with -∞. -/
theorem v3_at (b : Fin 8) (q : Fin 2048) :
    val_main_v3 (F := Ideal) x0 x1 (ix2 b q) = rowMax fun k => score x0 x1 b q k := by
  rw [val_main_v3_apply, val_main_v2_apply, val_main_cst_0_apply]
  show max (Ideal.ofBits .f32 0xFF800000#32) (val_main_v1 (F := Ideal) x0 x1 (ix2 b q)) = _
  rw [max_negInf]
  unfold val_main_v1
  rw [hostReduce_max_last (val_main_v0 (F := Ideal) x0 x1) (val_main_cst (F := Ideal)) (fun _ => rfl)
    reducesTo_S8x2048x2048_S8x2048_d2 (by decide) h_S_ b q]
  simp only [v0_at]

/-- The unnormalised weight of key `k` in row `(b, q)`. -/
theorem v7_at (b : Fin 8) (q k : Fin 2048) :
    val_main_v7 (F := Ideal) x0 x1 (ix3 b q k)
      = Ideal.exp (score x0 x1 b q k - rowMax fun k' => score x0 x1 b q k') := by
  rw [val_main_v7_apply, val_main_v6_apply, val_main_v5_apply, val_main_v4_apply]
  have e : idx_main_v4 (idx_main_v5 (ix3 b q k)) = ix2 b q :=
    funext fun a => Fin.ext (by match a with | ⟨0, _⟩ => rfl | ⟨1, _⟩ => rfl)
  rw [e, v3_at, v0_at]
  rfl

/-- The row's normaliser. -/
theorem v8_at (b : Fin 8) (q : Fin 2048) :
    val_main_v8 (F := Ideal) x0 x1 (ix2 b q)
      = ∑ k : Fin 2048, Ideal.exp (score x0 x1 b q k - rowMax fun k' => score x0 x1 b q k') := by
  rw [val_main_v8_apply, val_main_cst_1_apply]
  show Ideal.ofBits .f32 0x00000000#32 + _ = _
  rw [Ideal.ofBits_zero_f32, zero_add]
  refine Finset.sum_congr rfl fun k _ => ?_
  have e : idx_main_v8 (ix2 b q) k = ix3 b q k :=
    funext fun a => Fin.ext (by match a with | ⟨0, _⟩ => rfl | ⟨1, _⟩ => rfl | ⟨2, _⟩ => rfl)
  rw [e, v7_at]

/-- The normalised weight. -/
theorem v11_at (b : Fin 8) (q k : Fin 2048) :
    val_main_v11 (F := Ideal) x0 x1 (ix3 b q k)
      = Ideal.div (Ideal.exp (score x0 x1 b q k - rowMax fun k' => score x0 x1 b q k'))
          (∑ i : Fin 2048, Ideal.exp (score x0 x1 b q i - rowMax fun k' => score x0 x1 b q k')) := by
  rw [val_main_v11_apply, val_main_v10_apply, val_main_v9_apply]
  have e : idx_main_v9 (idx_main_v10 (ix3 b q k)) = ix2 b q :=
    funext fun a => Fin.ext (by match a with | ⟨0, _⟩ => rfl | ⟨1, _⟩ => rfl)
  rw [e, v8_at, v7_at]
  rfl

/-- THE REFERENCE'S RESULT is the attention output of its arguments. -/
theorem ref_eq_attn : val_main_v12 (F := Ideal) x0 x1 x2 = attn x0 x1 x2 := by
  funext i
  obtain ⟨b, q, d, rfl⟩ : ∃ (b : Fin 8) (q : Fin 2048) (d : Fin 512), i = ix3 b q d := ⟨i 0, i 1, i 2, eq_ix3 i⟩
  rw [val_main_v12_apply, attn_apply]
  unfold softmaxAvg
  refine Finset.sum_congr rfl fun k _ => ?_
  have el : lidx_main_v12 (ix3 b q d) k = ix3 b q k :=
    funext fun a => Fin.ext (by match a with | ⟨0, _⟩ => rfl | ⟨1, _⟩ => rfl | ⟨2, _⟩ => rfl)
  have er : ridx_main_v12 (ix3 b q d) k = ix3 b k d :=
    funext fun a => Fin.ext (by match a with | ⟨0, _⟩ => rfl | ⟨1, _⟩ => rfl | ⟨2, _⟩ => rfl)
  rw [el, er, v11_at]

end Cert.ReferenceIdeal.RefValue

end
-- ==== Proof.LibFiniteAll.lean ====
/-
  An array every entry of which passes the test |x| < +∞ consists of real numbers.

  On the extended reals the absolute value is max x (−x), the pattern 0x7F800000 of the 32-bit format denotes
  +∞, and the comparison "less than" is the order's. An extended real x with max x (−x) < +∞ is neither +∞ nor
  −∞ (at either infinity the maximum is +∞), so it is a real number. A conjunction over a whole array of such
  tests, computed as a reduction by "and" from the constant 1 down to a single word, equals 1 only if every
  test does; hence every entry of the array is a real number.
-/
import Mathlib
import Idealize.ShloMosaic.PureOps.Ideal
import Idealize.ShloMosaic.PureOps.Ideal.Laws
import Idealize.ShloMosaic.Lib.ReduceAll
import Idealize.ShloMosaic.Lib.ValueIdx
import proofs.«105089_j48790828482913_2_alg».proof.Proof.LibRealSum

noncomputable section

open Idealize.ShloMosaic
open Cert.LibRealSum

namespace Cert.Lib.FiniteAll

/-- The pattern of the positive infinity denotes +∞. -/
theorem ofBits_inf_f32 : Ideal.ofBits .f32 0x7F800000#32 = ⊤ := by simp [Ideal.ofBits, Ideal.ieee]

/-- An extended real whose absolute value is below +∞ is a real number. -/
theorem isReal_of_abs_lt_top (x : EReal) (h : max x (-x) < ⊤) : IsReal x := by
  induction x using EReal.rec with
  | bot => simp at h
  | coe a => exact ⟨a, rfl⟩
  | top => simp at h

/-- The same, with the test as the comparison word it is computed as. -/
theorem isReal_of_cmp (x : EReal)
    (h : Ideal.cmp .olt (max x (-x)) (Ideal.ofBits .f32 0x7F800000#32) = 1#1) : IsReal x := by
  rw [ofBits_inf_f32] at h
  refine isReal_of_abs_lt_top x ?_
  by_contra hn
  simp [Ideal.cmp, hn] at h

/-- The shape with no axes has one index. -/
instance subsingleton_scalarIdx : Subsingleton (⟨0, ![]⟩ : Shape).Idx := ⟨fun a b => funext fun d => d.elim0⟩

/-- If the conjunction over the whole array of the tests |x i| < +∞ is 1, every entry is a real number. -/
theorem all_real {s : Shape} {axes : List (Fin s.rank)} (x : FVec Ideal s .f32) (init : IVec ⟨0, ![]⟩ 1)
    (hr : s.ReducesTo axes ⟨0, ![]⟩) (hu : 0 < (⟨0, ![]⟩ : Shape).numel)
    (hb : (⟨0, ![]⟩ : Shape).BroadcastsInDim s (![] : Fin 0 → Fin s.rank))
    (e : Host.reduce IntOp.andi
          (cmpf .olt (Host.absf x) (broadcastInDim s ![] hb (constant (F := Ideal) ⟨0, ![]⟩ .f32 0x7F800000#32)))
          init hr hu ValueIdx.ix0 = 1#1)
    (i : s.Idx) : IsReal (x i) := by
  have h := Host.reduce_andi_all _ init hr hu ValueIdx.ix0 e i
  exact isReal_of_cmp (x i) h

end Cert.Lib.FiniteAll

end
-- ==== Proof.Finite.lean ====
/-
  Under the precondition every entry of the three argument arrays is a real number.

  The precondition is the conjunction of three tests, one per array, each the conjunction over the whole array of
  `|x| < +∞`. If the conjunction is 1 then each of the three is, and then every entry of every array is a real number.
-/
import proofs.«105089_j48790828482913_2_alg».proof.Pre_finite_inputs
import Idealize.ShloMosaic.Lib.Affine
import proofs.«105089_j48790828482913_2_alg».proof.Proof.LibFiniteAll

noncomputable section

namespace Cert.Pre_finite_inputs.Reals

open Idealize.ShloMosaic Cert.LibRealSum Cert.Lib.FiniteAll

theorem args_real [Cert.Pre_finite_inputs.Facts] (x0 x1 x2 : FVec Ideal Cert.Pre_finite_inputs.S8x2048x512 .f32)
    (h : Cert.Pre_finite_inputs.fn (F := Ideal) x0 x1 x2 = fun _ => 1#1) :
    (∀ i, IsReal (x0 i)) ∧ (∀ i, IsReal (x1 i)) ∧ (∀ i, IsReal (x2 i)) := by
  have h' := congrFun h ValueIdx.ix0
  unfold Cert.Pre_finite_inputs.fn at h'
  dsimp only at h'
  obtain ⟨h01, h2⟩ := IntOp.andi_eq_one.mp h'
  obtain ⟨h0, h1⟩ := IntOp.andi_eq_one.mp h01
  exact ⟨Cert.Lib.FiniteAll.all_real x0 _ _ _ _ h0, Cert.Lib.FiniteAll.all_real x1 _ _ _ _ h1, Cert.Lib.FiniteAll.all_real x2 _ _ _ _ h2⟩

end Cert.Pre_finite_inputs.Reals

end
-- ==== Proof.lean ====
/-
  Dense attention without scaling — `softmax(Q Kᵀ) V` over queries, keys and values `[8, 2048, 512]` — as a tiled kernel
  against its plain reference, over the extended reals.

  The kernel walks 8 batches × 4 query tiles of 512 rows. At the first tile of a batch it copies the batch's key and value
  slabs into two buffers it keeps across the batch's four tiles; at every tile it forms the 512 × 2048 scores of the
  tile's queries against all keys, subtracts each row's maximum, exponentiates, sums each row, multiplies the
  unnormalised weights with the values and divides each row of the product once by the row's sum. The reference divides
  every weight by its row's sum first and multiplies afterwards. Over the extended reals a change of float format is the
  identity and every product is an exact sum, so the two differ only in where the division stands, and

      (Σ_k w_k · v_k) / l  =  Σ_k (w_k / l) · v_k

  holds when the `w_k`, `v_k` and `l ≠ 0` are real numbers. The precondition makes every argument entry real; then the
  scores are real, the maximum of a row's 2048 scores is real, the weights are positive reals and `l` is a positive real.
  (Without the precondition an infinite entry can make `l` infinite or the products undefined, and the law fails.)

  The modules: Spec (the attention output as one function, and the law on real arrays), LibSoftmaxRow (the law for one
  row), LibAxis2 (a reduction along the last of three axes, read at an entry), KernelRow (one grid point's result at an
  entry), Pieces and Carried (what each grid point leaves in the kept buffers, by induction on the point), BlockReads
  (where each block sits in its array), Blocks (the output array after the run), RefAttn (the reference's result),
  Finite (the precondition read entry by entry).
-/
import proofs.«105089_j48790828482913_2_alg».proof.Defs
import proofs.«105089_j48790828482913_2_alg».proof.Proof.Gen.Kernel
import proofs.«105089_j48790828482913_2_alg».proof.Proof.Gen.Kernel.Skeleton
import proofs.«105089_j48790828482913_2_alg».proof.Proof.Gen.Kernel.Launch
import proofs.«105089_j48790828482913_2_alg».proof.Proof.Gen.Kernel.Points
import proofs.«105089_j48790828482913_2_alg».proof.Proof.Gen.Kernel.Frame
import proofs.«105089_j48790828482913_2_alg».proof.Proof.Gen.KernelIdeal
import proofs.«105089_j48790828482913_2_alg».proof.Proof.Gen.KernelIdeal.Skeleton
import proofs.«105089_j48790828482913_2_alg».proof.Proof.Gen.KernelIdeal.Launch
import proofs.«105089_j48790828482913_2_alg».proof.Proof.Gen.KernelIdeal.Points
import proofs.«105089_j48790828482913_2_alg».proof.Proof.Gen.KernelIdeal.Frame
import proofs.«105089_j48790828482913_2_alg».proof.Proof.Gen.ReferenceIdeal
import proofs.«105089_j48790828482913_2_alg».proof.Proof.Gen.Pre_finite_inputs
import proofs.«105089_j48790828482913_2_alg».proof.Proof.Gen.KernelIdeal.Value
import proofs.«105089_j48790828482913_2_alg».proof.Proof.Gen.ReferenceIdeal.Run
import proofs.«105089_j48790828482913_2_alg».proof.Proof.Gen.ReferenceIdeal.Read
import proofs.«105089_j48790828482913_2_alg».proof.Proof.Blocks
import proofs.«105089_j48790828482913_2_alg».proof.Proof.RefAttn
import proofs.«105089_j48790828482913_2_alg».proof.Proof.Finite
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From arguments that agree and hold real numbers, both programs end with the attention output of the arguments. -/
theorem algebraic : Cert.algebraic_KernelIdeal_ReferenceIdeal := by
  intro m ρ m' ρ' hpre hagree
  have hreal := fun c => Cert.Pre_finite_inputs.Reals.args_real _ _ _ (hpre c)
  refine ⟨_, Cert.KernelIdeal.Blocks.run m ρ hreal, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v12_eq, Cert.ReferenceIdeal.RefValue.ref_eq_attn,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
